-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S32x128 : Shape := ⟨2, ![32, 128]⟩
abbrev S32 : Shape := ⟨1, ![32]⟩
abbrev S16x32 : Shape := ⟨2, ![16, 32]⟩
abbrev S16 : Shape := ⟨1, ![16]⟩
abbrev S3x16 : Shape := ⟨2, ![3, 16]⟩
abbrev S3 : Shape := ⟨1, ![3]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3x16 .f32) (main_arg8 : FVec F S3 .f32) (main_v33 : IVec S_ 1) : IVec S_ 1 :=
  let main_v34 : FVec F S3x16 .f32 := Host.absf main_arg7
  let main_cst_12 : FVec F S_ .f32 := constant S_ .f32 0x7F800000#32
  let main_v35 : FVec F S3x16 .f32 := broadcastInDim S3x16 ![] bcast_S_S3x16 main_cst_12
  let main_v36 : IVec S3x16 1 := cmpf .olt main_v34 main_v35
  let main_c_13 : IVec S_ 1 := constantI S_ 1 1#1
  let main_v37 : IVec S_ 1 := (fun x v => Host.reduce IntOp.andi x v reducesTo_S3x16_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S16x32 .f32) (main_arg5 : FVec F S16 .f32) (main_arg6 : FVec F S16 .f32) (main_arg7 : FVec F S3x16 .f32) (main_arg8 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S1048576x128 .f32) (main_arg1 : FVec F S32x128 .f32) (main_arg2 : FVec F S32 .f32) (main_arg3 : FVec F S32 .f32) (main_arg4 : FVec F S16x32 .f32) (main_arg5 : FVec F S16 .f32) (main_arg6 : FVec F S16 .f32) (main_arg7 : FVec F S3x16 .f32) (main_arg8 : FVec F S3 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_v13 main_v16
-- ==== Kernel.lean ====
abbrev S1048576x128 : Shape := ⟨2, ![1048576, 128]⟩
abbrev S32x128 : Shape := ⟨2, ![32, 128]⟩
abbrev S32 : Shape := ⟨1, ![32]⟩
abbrev S16x32 : Shape := ⟨2, ![16, 32]⟩
abbrev S16 : Shape := ⟨1, ![16]⟩
abbrev S3x16 : Shape := ⟨2, ![3, 16]⟩
abbrev S3 : Shape := ⟨1, ![3]⟩
abbrev S32x1 : Shape := ⟨2, ![32, 1]⟩
abbrev S16x1 : Shape := ⟨2, ![16, 1]⟩
abbrev S3x1 : Shape := ⟨2, ![3, 1]⟩
abbrev S3x1048576 : Shape := ⟨2, ![3, 1048576]⟩
abbrev S16384x128 : Shape := ⟨2, ![16384, 128]⟩
abbrev S3x16384 : Shape := ⟨2, ![3, 16384]⟩
abbrev S32x16384 : Shape := ⟨2, ![32, 16384]⟩
abbrev S16384 : Shape := ⟨1, ![16384]⟩
abbrev S1x16384 : Shape := ⟨2, ![1, 16384]⟩
abbrev S16x16384 : Shape := ⟨2, ![16, 16384]⟩
abbrev S1048576x3 : Shape := ⟨2, ![1048576, 3]⟩

abbrev nBuf : Space → Nat
  | .hbm => 16
  | .vmem => 12
  | .smem => 0
  | _ => 0

abbrev bufTy : (tb : Table) → Fin (tcTables nBuf tb) → BufTy
  | .hbm, ⟨0, _⟩ => ⟨S1048576x128, .f32⟩
  | .hbm, ⟨1, _⟩ => ⟨S32x128, .f32⟩
  | .hbm, ⟨2, _⟩ => ⟨S32, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S16, .f32⟩
  | .hbm, ⟨7, _⟩ => ⟨S3x16, .f32⟩
  | .hbm, ⟨8, _⟩ => ⟨S3, .f32⟩
  | .hbm, ⟨9, _⟩ => ⟨S32x1, .f32⟩
  | .hbm, ⟨10, _⟩ => ⟨S32x1, .f32⟩
  | .hbm, ⟨11, _⟩ => ⟨S16x1, .f32⟩
  | .hbm, ⟨12, _⟩ => ⟨S16x1, .f32⟩
  | .hbm, ⟨13, _⟩ => ⟨S3x1, .f32⟩
  | .hbm, ⟨14, _⟩ => ⟨S3x1048576, .f32⟩
  | .hbm, ⟨15, _⟩ => ⟨S1048576x3, .f32⟩
  | .local _ .vmem, ⟨0, _⟩ => ⟨S16384x128, .f32⟩
  | .local _ .vmem, ⟨1, _⟩ => ⟨S16384x128, .f32⟩
  | .local _ .vmem, ⟨2, _⟩ => ⟨S32x128, .f32⟩
  | .local _ .vmem, ⟨3, _⟩ => ⟨S32x1, .f32⟩
  | .local _ .vmem, ⟨4, _⟩ => ⟨S32x1, .f32⟩
  | .local _ .vmem, ⟨5, _⟩ => ⟨S16x32, .f32⟩
  | .local _ .vmem, ⟨6, _⟩ => ⟨S16x1, .f32⟩
  | .local _ .vmem, ⟨7, _⟩ => ⟨S16x1, .f32⟩
  | .local _ .vmem, ⟨8, _⟩ => ⟨S3x16, .f32⟩
  | .local _ .vmem, ⟨9, _⟩ => ⟨S3x1, .f32⟩
  | .local _ .vmem, ⟨10, _⟩ => ⟨S3x16384, .f32⟩
  | .local _ .vmem, ⟨11, _⟩ => ⟨S3x16384, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32_S32x1 : S32.ShapeCasts S32x1
  shapeCasts_S16_S16x1 : S16.ShapeCasts S16x1
  shapeCasts_S3_S3x1 : S3.ShapeCasts S3x1
  inb_S16384x128_S16384x128_0_0 : ∀ a, (![0, 0] : Fin 2 → Nat) a + S16384x128.size a ≤ S16384x128.size a
  h_S16384x128 : 0 < S16384x128.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x16384_S16384 : S32x16384.Reduces [0] S16384
  shapeCasts_S16384_S1x16384 : S16384.ShapeCasts S1x16384
  broadcasts_S1x16384_S32x16384 : S1x16384.Broadcasts S32x16384
  broadcasts_S32x1_S32x16384 : S32x1.Broadcasts S32x16384
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S16x16384_S16384 : S16x16384.Reduces [0] S16384
  broadcasts_S1x16384_S16x16384 : S1x16384.Broadcasts S16x16384
  broadcasts_S16x1_S16x16384 : S16x1.Broadcasts S16x16384
  inb_S3x16_S3x16_0_0 : ∀ a, (![0, 0] : Fin 2 → Nat) a + S3x16.size a ≤ S3x16.size a
  h_S3x16 : 0 < S3x16.numel
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16384 : S3x1.Broadcasts S3x16384
  reduces_S3x16384_S16384 : S3x16384.Reduces [0] S16384
  broadcasts_S1x16384_S3x16384 : S1x16384.Broadcasts S3x16384
  inb_S3x16384_S3x16384_0_0 : ∀ a, (![0, 0] : Fin 2 → Nat) a + S3x16384.size a ≤ S3x16384.size a
  h_S3x16384 : 0 < S3x16384.numel
  transposes_S3x1048576_S1048576x3_1_0 : S3x1048576.Transposes [1, 0] S1048576x3
  dot_S32x128_S16384x128_S32x16384_1_1_0_0_n_n_wf : DotDims.WF S32x128 S16384x128 S32x16384 [1] [1] [0] [0] [] []
  dot_S16x32_S32x16384_S16x16384_1_0_0_1_n_n_wf : DotDims.WF S16x32 S32x16384 S16x16384 [1] [0] [0] [1] [] []
  dot_S3x16_S16x16384_S3x16384_1_0_0_1_n_n_wf : DotDims.WF S3x16 S16x16384 S3x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x16.size a ≤ S3x16.size a
  hwx0_7 : ∀ i : grid0.Coords, EltTy.bits .f32 = 32 ∨ (Rect.block (s := S3x16) S3x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1.size a ≤ S3x1.size a
  hwx0_8 : ∀ i : grid0.Coords, EltTy.bits .f32 = 32 ∨ (Rect.block (s := S3x1) S3x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x16384.size a ≤ S3x1048576.size a
  hwx0_9 : ∀ i : grid0.Coords, EltTy.bits .f32 = 32 ∨ (Rect.block (s := S3x1048576) S3x16384.size (cc0_transform_9 i) (hinb0_9 i)).WholeWords (EltTy.packing .f32)

variable [Facts₀]

def dot_S32x128_S16384x128_S32x16384_1_1_0_0_n_n : DotDims S32x128 S16384x128 S32x16384 where
  lhsContracting := [1]
  rhsContracting := [1]
  lhsNonContracting := [0]
  rhsNonContracting := [0]
  lhsBatch := []
  rhsBatch := []
  wf := dot_S32x128_S16384x128_S32x16384_1_1_0_0_n_n_wf
def dot_S16x32_S32x16384_S16x16384_1_0_0_1_n_n : DotDims S16x32 S32x16384 S16x16384 where
  lhsContracting := [1]
  rhsContracting := [0]
  lhsNonContracting := [0]
  rhsNonContracting := [1]
  lhsBatch := []
  rhsBatch := []
  wf := dot_S16x32_S32x16384_S16x16384_1_0_0_1_n_n_wf
def dot_S3x16_S16x16384_S3x16384_1_0_0_1_n_n : DotDims S3x16 S16x16384 S3x16384 where
  lhsContracting := [1]
  rhsContracting := [0]
  lhsNonContracting := [0]
  rhsNonContracting := [1]
  lhsBatch := []
  rhsBatch := []
  wf := dot_S3x16_S16x16384_S3x16384_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S3x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S3x16384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S32x128 : Shape := ⟨2, ![32, 128]⟩
abbrev S32 : Shape := ⟨1, ![32]⟩
abbrev S16x32 : Shape := ⟨2, ![16, 32]⟩
abbrev S16 : Shape := ⟨1, ![16]⟩
abbrev S3x16 : Shape := ⟨2, ![3, 16]⟩
abbrev S3 : Shape := ⟨1, ![3]⟩
abbrev S128x32 : Shape := ⟨2, ![128, 32]⟩
abbrev S1048576x32 : Shape := ⟨2, ![1048576, 32]⟩
abbrev S_ : Shape := ⟨0, ![]⟩
abbrev S1048576 : Shape := ⟨1, ![1048576]⟩
abbrev S1048576x1 : Shape := ⟨2, ![1048576, 1]⟩
abbrev S1x32 : Shape := ⟨2, ![1, 32]⟩
abbrev S32x16 : Shape := ⟨2, ![32, 16]⟩
abbrev S1048576x16 : Shape := ⟨2, ![1048576, 16]⟩
abbrev S1x16 : Shape := ⟨2, ![1, 16]⟩
abbrev S16x3 : Shape := ⟨2, ![16, 3]⟩
abbrev S1048576x3 : Shape := ⟨2, ![1048576, 3]⟩
abbrev S1x3 : Shape := ⟨2, ![1, 3]⟩

abbrev nBuf : Space → Nat
  | .hbm => 100
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S32x128, .f32⟩
  | .hbm, ⟨2, _⟩ => ⟨S32, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S16, .f32⟩
  | .hbm, ⟨7, _⟩ => ⟨S3x16, .f32⟩
  | .hbm, ⟨8, _⟩ => ⟨S3, .f32⟩
  | .hbm, ⟨9, _⟩ => ⟨S128x32, .f32⟩
  | .hbm, ⟨10, _⟩ => ⟨S1048576x32, .f32⟩
  | .hbm, ⟨11, _⟩ => ⟨S_, .f32⟩
  | .hbm, ⟨12, _⟩ => ⟨S1048576, .f32⟩
  | .hbm, ⟨13, _⟩ => ⟨S1048576x1, .f32⟩
  | .hbm, ⟨14, _⟩ => ⟨S_, .f32⟩
  | .hbm, ⟨15, _⟩ => ⟨S1048576x1, .f32⟩
  | .hbm, ⟨16, _⟩ => ⟨S1048576x1, .f32⟩
  | .hbm, ⟨17, _⟩ => ⟨S1048576x32, .f32⟩
  | .hbm, ⟨18, _⟩ => ⟨S1048576x32, .f32⟩
  | .hbm, ⟨19, _⟩ => ⟨S1048576x32, .f32⟩
  | .hbm, ⟨20, _⟩ => ⟨S_, .f32⟩
  | .hbm, ⟨21, _⟩ => ⟨S1048576, .f32⟩
  | .hbm, ⟨22, _⟩ => ⟨S1048576x1, .f32⟩
  | .hbm, ⟨23, _⟩ => ⟨S_, .f32⟩
  | .hbm, ⟨24, _⟩ => ⟨S1048576x1, .f32⟩
  | .hbm, ⟨25, _⟩ => ⟨S1048576x1, .f32⟩
  | .hbm, ⟨26, _⟩ => ⟨S1048576x32, .f32⟩
  | .hbm, ⟨27, _⟩ => ⟨S1048576x32, .f32⟩
  | .hbm, ⟨28, _⟩ => ⟨S_, .f32⟩
  | .hbm, ⟨29, _⟩ => ⟨S1048576x1, .f32⟩
  | .hbm, ⟨30, _⟩ => ⟨S1048576x1, .f32⟩
  | .hbm, ⟨31, _⟩ => ⟨S1048576x1, .f32⟩
  | .hbm, ⟨32, _⟩ => ⟨S1048576x32, .f32⟩
  | .hbm, ⟨33, _⟩ => ⟨S1048576x32, .f32⟩
  | .hbm, ⟨34, _⟩ => ⟨S1x32, .f32⟩
  | .hbm, ⟨35, _⟩ => ⟨S1048576x32, .f32⟩
  | .hbm, ⟨36, _⟩ => ⟨S1048576x32, .f32⟩
  | .hbm, ⟨37, _⟩ => ⟨S1x32, .f32⟩
  | .hbm, ⟨38, _⟩ => ⟨S1048576x32, .f32⟩
  | .hbm, ⟨39, _⟩ => ⟨S1048576x32, .f32⟩
  | .hbm, ⟨40, _⟩ => ⟨S_, .f32⟩
  | .hbm, ⟨41, _⟩ => ⟨S1048576x32, .f32⟩
  | .hbm, ⟨42, _⟩ => ⟨S1048576x32, .i1⟩
  | .hbm, ⟨43, _⟩ => ⟨S_, .f32⟩
  | .hbm, ⟨44, _⟩ => ⟨S1048576x32, .f32⟩
  | .hbm, ⟨45, _⟩ => ⟨S1048576x32, .f32⟩
  | .hbm, ⟨46, _⟩ => ⟨S1048576x32, .f32⟩
  | .hbm, ⟨47, _⟩ => ⟨S32x16, .f32⟩
  | .hbm, ⟨48, _⟩ => ⟨S1048576x16, .f32⟩
  | .hbm, ⟨49, _⟩ => ⟨S_, .f32⟩
  | .hbm, ⟨50, _⟩ => ⟨S1048576, .f32⟩
  | .hbm, ⟨51, _⟩ => ⟨S1048576x1, .f32⟩
  | .hbm, ⟨52, _⟩ => ⟨S_, .f32⟩
  | .hbm, ⟨53, _⟩ => ⟨S1048576x1, .f32⟩
  | .hbm, ⟨54, _⟩ => ⟨S1048576x1, .f32⟩
  | .hbm, ⟨55, _⟩ => ⟨S1048576x16, .f32⟩
  | .hbm, ⟨56, _⟩ => ⟨S1048576x16, .f32⟩
  | .hbm, ⟨57, _⟩ => ⟨S1048576x16, .f32⟩
  | .hbm, ⟨58, _⟩ => ⟨S_, .f32⟩
  | .hbm, ⟨59, _⟩ => ⟨S1048576, .f32⟩
  | .hbm, ⟨60, _⟩ => ⟨S1048576x1, .f32⟩
  | .hbm, ⟨61, _⟩ => ⟨S_, .f32⟩
  | .hbm, ⟨62, _⟩ => ⟨S1048576x1, .f32⟩
  | .hbm, ⟨63, _⟩ => ⟨S1048576x1, .f32⟩
  | .hbm, ⟨64, _⟩ => ⟨S1048576x16, .f32⟩
  | .hbm, ⟨65, _⟩ => ⟨S1048576x16, .f32⟩
  | .hbm, ⟨66, _⟩ => ⟨S_, .f32⟩
  | .hbm, ⟨67, _⟩ => ⟨S1048576x1, .f32⟩
  | .hbm, ⟨68, _⟩ => ⟨S1048576x1, .f32⟩
  | .hbm, ⟨69, _⟩ => ⟨S1048576x1, .f32⟩
  | .hbm, ⟨70, _⟩ => ⟨S1048576x16, .f32⟩
  | .hbm, ⟨71, _⟩ => ⟨S1048576x16, .f32⟩
  | .hbm, ⟨72, _⟩ => ⟨S1x16, .f32⟩
  | .hbm, ⟨73, _⟩ => ⟨S1048576x16, .f32⟩
  | .hbm, ⟨74, _⟩ => ⟨S1048576x16, .f32⟩
  | .hbm, ⟨75, _⟩ => ⟨S1x16, .f32⟩
  | .hbm, ⟨76, _⟩ => ⟨S1048576x16, .f32⟩
  | .hbm, ⟨77, _⟩ => ⟨S1048576x16, .f32⟩
  | .hbm, ⟨78, _⟩ => ⟨S_, .f32⟩
  | .hbm, ⟨79, _⟩ => ⟨S1048576x16, .f32⟩
  | .hbm, ⟨80, _⟩ => ⟨S1048576x16, .i1⟩
  | .hbm, ⟨81, _⟩ => ⟨S_, .f32⟩
  | .hbm, ⟨82, _⟩ => ⟨S1048576x16, .f32⟩
  | .hbm, ⟨83, _⟩ => ⟨S1048576x16, .f32⟩
  | .hbm, ⟨84, _⟩ => ⟨S1048576x16, .f32⟩
  | .hbm, ⟨85, _⟩ => ⟨S16x3, .f32⟩
  | .hbm, ⟨86, _⟩ => ⟨S1048576x3, .f32⟩
  | .hbm, ⟨87, _⟩ => ⟨S1x3, .f32⟩
  | .hbm, ⟨88, _⟩ => ⟨S1048576x3, .f32⟩
  | .hbm, ⟨89, _⟩ => ⟨S1048576x3, .f32⟩
  | .hbm, ⟨90, _⟩ => ⟨S1048576x3, .f32⟩
  | .hbm, ⟨91, _⟩ => ⟨S_, .f32⟩
  | .hbm, ⟨92, _⟩ => ⟨S1048576, .f32⟩
  | .hbm, ⟨93, _⟩ => ⟨S1048576x1, .f32⟩
  | .hbm, ⟨94, _⟩ => ⟨S1048576x1, .f32⟩
  | .hbm, ⟨95, _⟩ => ⟨S_, .f32⟩
  | .hbm, ⟨96, _⟩ => ⟨S1048576x1, .f32⟩
  | .hbm, ⟨97, _⟩ => ⟨S1048576x1, .f32⟩
  | .hbm, ⟨98, _⟩ => ⟨S1048576x3, .f32⟩
  | .hbm, ⟨99, _⟩ => ⟨S1048576x3, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call2_v0 : Ref sig .tc := ⟨.hbm, 90, rfl⟩
abbrev main_call2_cst : Ref sig .tc := ⟨.hbm, 91, rfl⟩
abbrev main_call2_v1 : Ref sig .tc := ⟨.hbm, 92, rfl⟩
abbrev main_call2_v2 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  transposes_S32x128_S128x32_1_0 : S32x128.Transposes [1, 0] S128x32
  reducesTo_S1048576x32_S1048576_d1 : S1048576x32.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x32_0_1 : S1048576x1.BroadcastsInDim S1048576x32 (![0, 1] : Fin 2 → Fin S1048576x32.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  transposes_S16x32_S32x16_1_0 : S16x32.Transposes [1, 0] S32x16
  reducesTo_S1048576x16_S1048576_d1 : S1048576x16.ReducesTo [1] S1048576
  bcast_S1048576x1_S1048576x16_0_1 : S1048576x1.BroadcastsInDim S1048576x16 (![0, 1] : Fin 2 → Fin S1048576x16.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  transposes_S3x16_S16x3_1_0 : S3x16.Transposes [1, 0] S16x3
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  reducesTo_S1048576x3_S1048576_d1 : S1048576x3.ReducesTo [1] S1048576
  bcast_S1048576x1_S1048576x3_0_1 : S1048576x1.BroadcastsInDim S1048576x3 (![0, 1] : Fin 2 → Fin S1048576x3.rank)
  dot_S1048576x128_S128x32_S1048576x32_1_0_0_1_n_n_wf : DotDims.WF S1048576x128 S128x32 S1048576x32 [1] [0] [0] [1] [] []
  dot_S1048576x32_S32x16_S1048576x16_1_0_0_1_n_n_wf : DotDims.WF S1048576x32 S32x16 S1048576x16 [1] [0] [0] [1] [] []
  dot_S1048576x16_S16x3_S1048576x3_1_0_0_1_n_n_wf : DotDims.WF S1048576x16 S16x3 S1048576x3 [1] [0] [0] [1] [] []

variable [Facts₀]

def dot_S1048576x128_S128x32_S1048576x32_1_0_0_1_n_n : DotDims S1048576x128 S128x32 S1048576x32 where
  lhsContracting := [1]
  rhsContracting := [0]
  lhsNonContracting := [0]
  rhsNonContracting := [1]
  lhsBatch := []
  rhsBatch := []
  wf := dot_S1048576x128_S128x32_S1048576x32_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def dot_S1048576x16_S16x3_S1048576x3_1_0_0_1_n_n : DotDims S1048576x16 S16x3 S1048576x3 where
  lhsContracting := [1]
  rhsContracting := [0]
  lhsNonContracting := [0]
  rhsNonContracting := [1]
  lhsBatch := []
  rhsBatch := []
  wf := dot_S1048576x16_S16x3_S1048576x3_1_0_0_1_n_n_wf

class Facts : Prop extends Facts₀ where

variable [Facts]
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibColumnSum.lean ====
/-
  A sum along axis 0 of an [n, B] vector, read at a column.

  A kernel that keeps channels down the rows of a tile and samples across its columns reduces along axis 0: the
  result at column q is the sum of the n entries of that column. On the extended reals the reduction from the
  zero accumulator is that plain sum; the library's index of the reduced axis put back into the result index is
  the entry (j, q). Every extent is generic.
-/
import Idealize.ShloMosaic.PureOps.Ideal.Laws
import Idealize.ShloMosaic.Lib.ValueIdx

namespace ColumnSum

open Idealize.ShloMosaic Idealize.ShloMosaic.ValueIdx

variable {n B : ℕ}

/-- Column q with the channel coordinate j put back on axis 0 is the entry (j, q). -/
theorem lift_col (h : Shape.Reduces ⟨2, ![n, B]⟩ [0] ⟨1, ![B]⟩) (q : Fin B) (j : Fin n) :
    h.lift (ix1 q) j = ix2 j q := by
  funext d
  apply Fin.ext
  match d with
  | ⟨0, h0⟩ =>
    show h.liftVal (ix1 q) j.val ⟨0, h0⟩ = j.val
    unfold Shape.Reduces.liftVal
    split
    · rfl
    · next hc => exact absurd rfl hc
  | ⟨1, h1⟩ =>
    show h.liftVal (ix1 q) j.val ⟨1, h1⟩ = q.val
    unfold Shape.Reduces.liftVal
    split
    · next hc => exact absurd hc Nat.one_ne_zero
    · split
      · next hlt => exact absurd hlt (Nat.not_lt_zero _)
      · rfl

/-- A sum along axis 0 from the zero accumulator, at column q: the sum of the column's n entries. -/
theorem colSum_apply (v : FVec Ideal ⟨2, ![n, B]⟩ .f32) (h : Shape.Reduces ⟨2, ![n, B]⟩ [0] ⟨1, ![B]⟩)
    (hφ : FKind.Formats .f32) (hacc : (0x00000000#32 : BitVec 32) = FKind.add.neutral .f32 hφ) (q : Fin B) :
    multiReduction .add [0] ⟨1, ![B]⟩ v 0x00000000#32 h hφ hacc (ix1 q) = ∑ j : Fin n, v (ix2 j q) := by
  refine (Ideal.multiReduction_add_single v 0x00000000#32 h hφ hacc (ix1 q)).trans ?_
  exact Finset.sum_congr rfl fun j _ => congrArg v (lift_col h q j)

end ColumnSum
-- ==== Proof.Spec.lean ====
/-
  The decoder's row function on the extended reals.

  Each input row x (128 features) goes through three small linear maps. After the first two the result is
  normalised over its channels (mean and variance taken over the channel axis, both as a sum divided by the
  channel count, the deviation multiplied by the reciprocal square root of variance plus a small constant,
  then by a per-channel gain, plus a per-channel bias) and passed through a leaky rectifier (the value itself
  when it is at least zero, a tenth of it otherwise). The third map adds a bias and the resulting 3-vector is
  divided by the larger of its Euclidean length and a tiny floor. Everything is stated with the operations of
  the extended reals exactly as both programs apply them, so no property of finite numbers is needed: the
  two programs differ only in the order of the two factors inside each linear map and in how they lay the
  rows out in memory.
-/
import Idealize.ShloMosaic.PureOps.Ideal
import Idealize.ShloMosaic.Lib.ValueIdx

noncomputable section

namespace NormalDecoder

open Idealize.ShloMosaic Idealize.ShloMosaic.ValueIdx

/-- The float words both programs spell: zero, the variance's additive constant, the rectifier's slope, the
    length's floor, and the two channel counts. The same word denotes the same extended real on both sides,
    so none of them is ever evaluated. -/
abbrev zero : EReal := Ideal.ofBits .f32 0x00000000#32
abbrev lnEps : EReal := Ideal.ofBits .f32 0x3727C5AC#32
abbrev slope : EReal := Ideal.ofBits .f32 0x3DCCCCCD#32
abbrev normFloor : EReal := Ideal.ofBits .f32 0x2B8CBCCC#32
abbrev count32 : EReal := Ideal.ofBits .f32 0x42000000#32
abbrev count16 : EReal := Ideal.ofBits .f32 0x41800000#32

variable {n k : ℕ}

/-- A linear map: channel c of W applied to v, the weight written first in each product. -/
def lin (W : Fin n → Fin k → EReal) (v : Fin k → EReal) (c : Fin n) : EReal := ∑ j, W c j * v j

/-- The mean over the channels: their sum divided by the count d. -/
def mean (d : EReal) (h : Fin n → EReal) : EReal := Ideal.div (∑ j, h j) d

/-- The variance over the channels: the mean of the squared deviations. -/
def var (d : EReal) (h : Fin n → EReal) : EReal :=
  Ideal.div (∑ j, (h j - mean d h) * (h j - mean d h)) d

/-- Channel c normalised, scaled by the gain and shifted by the bias. -/
def normed (d : EReal) (h g b : Fin n → EReal) (c : Fin n) : EReal :=
  (h c - mean d h) * Ideal.rsqrt (var d h + lnEps) * g c + b c

/-- The leaky rectifier. -/
def leaky (y : EReal) : EReal :=
  Scalar.select (FloatOps.cmpf (F := Ideal) (φ := .f32) .oge y zero) y (slope * y)

/-- Normalisation followed by the rectifier. -/
def act (d : EReal) (h g b : Fin n → EReal) (c : Fin n) : EReal := leaky (normed d h g b c)

/-- A vector divided by the larger of its Euclidean length and the floor. -/
def unitize (h : Fin n → EReal) (c : Fin n) : EReal :=
  Ideal.div (h c) (max (Ideal.sqrt (∑ j, h j * h j)) normFloor)

variable {n1 n2 n3 : ℕ}

/-- The whole decoder on one row. -/
def rowOut (W1 : Fin n1 → Fin k → EReal) (g1 b1 : Fin n1 → EReal) (W2 : Fin n2 → Fin n1 → EReal)
    (g2 b2 : Fin n2 → EReal) (W3 : Fin n3 → Fin n2 → EReal) (b3 : Fin n3 → EReal) (x : Fin k → EReal)
    (c : Fin n3) : EReal :=
  unitize (fun c' => lin W3 (act count16 (lin W2 (act count32 (lin W1 x) g1 b1)) g2 b2) c' + b3 c') c

/-- The decoder on the argument arrays: entry (r, c) of the result is channel c of the decoder on row r of
    the features. -/
def G (x : (⟨2, ![1048576, 128]⟩ : Shape).Idx → EReal) (W1 : (⟨2, ![32, 128]⟩ : Shape).Idx → EReal)
    (g1 b1 : (⟨1, ![32]⟩ : Shape).Idx → EReal) (W2 : (⟨2, ![16, 32]⟩ : Shape).Idx → EReal)
    (g2 b2 : (⟨1, ![16]⟩ : Shape).Idx → EReal) (W3 : (⟨2, ![3, 16]⟩ : Shape).Idx → EReal)
    (b3 : (⟨1, ![3]⟩ : Shape).Idx → EReal) (r : Fin 1048576) (c : Fin 3) : EReal :=
  rowOut (fun c k => W1 (ix2 c k)) (fun c => g1 (ix1 c)) (fun c => b1 (ix1 c)) (fun c k => W2 (ix2 c k))
    (fun c => g2 (ix1 c)) (fun c => b2 (ix1 c)) (fun c k => W3 (ix2 c k)) (fun c => b3 (ix1 c))
    (fun k => x (ix2 r k)) c

/-- The same as an array of shape [1048576, 3]. -/
def Garr (x : (⟨2, ![1048576, 128]⟩ : Shape).Idx → EReal) (W1 : (⟨2, ![32, 128]⟩ : Shape).Idx → EReal)
    (g1 b1 : (⟨1, ![32]⟩ : Shape).Idx → EReal) (W2 : (⟨2, ![16, 32]⟩ : Shape).Idx → EReal)
    (g2 b2 : (⟨1, ![16]⟩ : Shape).Idx → EReal) (W3 : (⟨2, ![3, 16]⟩ : Shape).Idx → EReal)
    (b3 : (⟨1, ![3]⟩ : Shape).Idx → EReal) : (⟨2, ![1048576, 3]⟩ : Shape).Idx → EReal :=
  fun i => G x W1 g1 b1 W2 g2 b2 W3 b3 (i 0) (i 1)

theorem Garr_ix2 (x : (⟨2, ![1048576, 128]⟩ : Shape).Idx → EReal) (W1 : (⟨2, ![32, 128]⟩ : Shape).Idx → EReal)
    (g1 b1 : (⟨1, ![32]⟩ : Shape).Idx → EReal) (W2 : (⟨2, ![16, 32]⟩ : Shape).Idx → EReal)
    (g2 b2 : (⟨1, ![16]⟩ : Shape).Idx → EReal) (W3 : (⟨2, ![3, 16]⟩ : Shape).Idx → EReal)
    (b3 : (⟨1, ![3]⟩ : Shape).Idx → EReal) (r : Fin 1048576) (c : Fin 3) :
    Garr x W1 g1 b1 W2 g2 b2 W3 b3 (ix2 r c) = G x W1 g1 b1 W2 g2 b2 W3 b3 r c := rfl

end NormalDecoder

end
-- ==== Proof.ColumnNorm.lean ====
/-
  Normalisation over the channel axis of a block laid out channels-by-rows, read at an entry.

  The kernel keeps a tile of rows as an [n, B] block: n channels down, B rows across. Normalising every row over
  its channels is then a reduction along axis 0: the column sums, recast to a [1, B] row, divided by the channel
  count, broadcast back down the n channels. This module reads that chain of vector operations at an entry
  (c, q) as the row function of the specification applied to column q of the block: the mean and variance of
  the column, the deviation times the reciprocal square root, the per-channel gain and bias (held as [n, 1]
  columns and broadcast across the rows), and the leaky rectifier. Every extent is generic.
-/
import Idealize.ShloMosaic.PureOps.Ideal.Laws
import Idealize.ShloMosaic.Lib.ValueIdx
import Idealize.ShloMosaic.Lib.ValueLayout
import Idealize.ShloMosaic.Lib.Pipeline.Value
import proofs.«121626_j12489764897254_2_alg».proof.Proof.LibRowOps
import proofs.«121626_j12489764897254_2_alg».proof.Proof.LibColumnSum
import proofs.«121626_j12489764897254_2_alg».proof.Proof.Spec

noncomputable section

namespace NormalDecoder

open Idealize.ShloMosaic Idealize.ShloMosaic.ValueIdx ColumnSum

variable {n B : ℕ}

/-- The mean over axis 0 kept as a [1, B] row: the column sums recast to a row and divided by the count. -/
def colMeanVec (v : FVec Ideal ⟨2, ![n, B]⟩ .f32) (dw : BitVec 32)
    (hr : Shape.Reduces ⟨2, ![n, B]⟩ [0] ⟨1, ![B]⟩) (hφ : FKind.Formats .f32)
    (hacc : (0x00000000#32 : BitVec 32) = FKind.add.neutral .f32 hφ)
    (hc : (⟨1, ![B]⟩ : Shape).ShapeCasts ⟨2, ![1, B]⟩) : FVec Ideal ⟨2, ![1, B]⟩ .f32 :=
  divf (shapeCast ⟨2, ![1, B]⟩ (multiReduction .add [0] ⟨1, ![B]⟩ v 0x00000000#32 hr hφ hacc) hc)
    (broadcast ⟨2, ![1, B]⟩ (Scalar.ofBits .f32 dw))

theorem colMeanVec_apply (v : FVec Ideal ⟨2, ![n, B]⟩ .f32) (dw : BitVec 32)
    (hr : Shape.Reduces ⟨2, ![n, B]⟩ [0] ⟨1, ![B]⟩) (hφ : FKind.Formats .f32)
    (hacc : (0x00000000#32 : BitVec 32) = FKind.add.neutral .f32 hφ)
    (hc : (⟨1, ![B]⟩ : Shape).ShapeCasts ⟨2, ![1, B]⟩) (u : Fin 1) (q : Fin B) :
    colMeanVec v dw hr hφ hacc hc (ix2 u q) = mean (Ideal.ofBits .f32 dw) (fun j => v (ix2 j q)) := by
  show Ideal.div (shapeCast ⟨2, ![1, B]⟩ (multiReduction .add [0] ⟨1, ![B]⟩ v 0x00000000#32 hr hφ hacc) hc (ix2 u q))
    (Ideal.ofBits .f32 dw) = _
  rw [shapeCast_a_1a_apply, colSum_apply]
  rfl

/-- Normalisation over axis 0 followed by the leaky rectifier, as the kernel's vector operations: g and b are
    the gain and bias columns, dw the channel count's float word. -/
def colNormLeakyVec (h : FVec Ideal ⟨2, ![n, B]⟩ .f32) (g b : FVec Ideal ⟨2, ![n, 1]⟩ .f32) (dw : BitVec 32)
    (hr : Shape.Reduces ⟨2, ![n, B]⟩ [0] ⟨1, ![B]⟩) (hφ : FKind.Formats .f32)
    (hacc : (0x00000000#32 : BitVec 32) = FKind.add.neutral .f32 hφ)
    (hc : (⟨1, ![B]⟩ : Shape).ShapeCasts ⟨2, ![1, B]⟩)
    (hb : (⟨2, ![1, B]⟩ : Shape).Broadcasts ⟨2, ![n, B]⟩)
    (hg : (⟨2, ![n, 1]⟩ : Shape).Broadcasts ⟨2, ![n, B]⟩) : FVec Ideal ⟨2, ![n, B]⟩ .f32 :=
  let cen := subf h (broadcastTo ⟨2, ![n, B]⟩ (colMeanVec h dw hr hφ hacc hc) hb)
  let y := addf (mulf (mulf cen (broadcastTo ⟨2, ![n, B]⟩ (rsqrt (addf (colMeanVec (mulf cen cen) dw hr hφ hacc hc)
      (broadcast ⟨2, ![1, B]⟩ (Scalar.ofBits .f32 0x3727C5AC#32)))) hb)) (broadcastTo ⟨2, ![n, B]⟩ g hg))
    (broadcastTo ⟨2, ![n, B]⟩ b hg)
  select (cmpf .oge y (broadcast ⟨2, ![n, B]⟩ (Scalar.ofBits .f32 0x00000000#32))) y
    (mulf (broadcast ⟨2, ![n, B]⟩ (Scalar.ofBits .f32 0x3DCCCCCD#32)) y)

theorem colNormLeakyVec_apply (h : FVec Ideal ⟨2, ![n, B]⟩ .f32) (g b : FVec Ideal ⟨2, ![n, 1]⟩ .f32) (dw : BitVec 32)
    (hr : Shape.Reduces ⟨2, ![n, B]⟩ [0] ⟨1, ![B]⟩) (hφ : FKind.Formats .f32)
    (hacc : (0x00000000#32 : BitVec 32) = FKind.add.neutral .f32 hφ)
    (hc : (⟨1, ![B]⟩ : Shape).ShapeCasts ⟨2, ![1, B]⟩)
    (hb : (⟨2, ![1, B]⟩ : Shape).Broadcasts ⟨2, ![n, B]⟩)
    (hg : (⟨2, ![n, 1]⟩ : Shape).Broadcasts ⟨2, ![n, B]⟩) (c : Fin n) (q : Fin B) :
    colNormLeakyVec h g b dw hr hφ hacc hc hb hg (ix2 c q)
      = act (Ideal.ofBits .f32 dw) (fun j => h (ix2 j q)) (fun j => g (ix2 j (0 : Fin 1)))
          (fun j => b (ix2 j (0 : Fin 1))) c := by
  have hcen : ∀ j : Fin n, subf h (broadcastTo ⟨2, ![n, B]⟩ (colMeanVec h dw hr hφ hacc hc) hb) (ix2 j q)
      = h (ix2 j q) - mean (Ideal.ofBits .f32 dw) (fun j => h (ix2 j q)) := fun j =>
    congrArg (h (ix2 j q) - ·)
      ((broadcastTo_1b_ab_apply _ hb j q).trans (colMeanVec_apply h dw hr hφ hacc hc 0 q))
  have hvar : colMeanVec (mulf (subf h (broadcastTo ⟨2, ![n, B]⟩ (colMeanVec h dw hr hφ hacc hc) hb))
        (subf h (broadcastTo ⟨2, ![n, B]⟩ (colMeanVec h dw hr hφ hacc hc) hb))) dw hr hφ hacc hc (ix2 (0 : Fin 1) q)
      = var (Ideal.ofBits .f32 dw) (fun j => h (ix2 j q)) := by
    rw [colMeanVec_apply]
    unfold var mean
    refine congrArg (Ideal.div · _) (Finset.sum_congr rfl fun j _ => ?_)
    show subf h _ (ix2 j q) * subf h _ (ix2 j q) = _
    rw [hcen j]
    rfl
  have hrs : broadcastTo ⟨2, ![n, B]⟩ (rsqrt (addf (colMeanVec (mulf (subf h (broadcastTo ⟨2, ![n, B]⟩ (colMeanVec h dw hr hφ hacc hc) hb))
        (subf h (broadcastTo ⟨2, ![n, B]⟩ (colMeanVec h dw hr hφ hacc hc) hb))) dw hr hφ hacc hc)
        (broadcast ⟨2, ![1, B]⟩ (Scalar.ofBits .f32 0x3727C5AC#32)))) hb (ix2 c q)
      = Ideal.rsqrt (var (Ideal.ofBits .f32 dw) (fun j => h (ix2 j q)) + lnEps) :=
    (broadcastTo_1b_ab_apply _ hb c q).trans (congrArg (fun z => Ideal.rsqrt (z + lnEps)) hvar)
  have hgc : broadcastTo ⟨2, ![n, B]⟩ g hg (ix2 c q) = g (ix2 c (0 : Fin 1)) := Gcn.Lib.broadcastTo_a1_ab_apply g hg c q
  have hbc : broadcastTo ⟨2, ![n, B]⟩ b hg (ix2 c q) = b (ix2 c (0 : Fin 1)) := Gcn.Lib.broadcastTo_a1_ab_apply b hg c q
  have hy : addf (mulf (mulf (subf h (broadcastTo ⟨2, ![n, B]⟩ (colMeanVec h dw hr hφ hacc hc) hb))
        (broadcastTo ⟨2, ![n, B]⟩ (rsqrt (addf (colMeanVec (mulf (subf h (broadcastTo ⟨2, ![n, B]⟩ (colMeanVec h dw hr hφ hacc hc) hb))
          (subf h (broadcastTo ⟨2, ![n, B]⟩ (colMeanVec h dw hr hφ hacc hc) hb))) dw hr hφ hacc hc)
          (broadcast ⟨2, ![1, B]⟩ (Scalar.ofBits .f32 0x3727C5AC#32)))) hb)) (broadcastTo ⟨2, ![n, B]⟩ g hg))
        (broadcastTo ⟨2, ![n, B]⟩ b hg) (ix2 c q)
      = normed (Ideal.ofBits .f32 dw) (fun j => h (ix2 j q)) (fun j => g (ix2 j (0 : Fin 1)))
          (fun j => b (ix2 j (0 : Fin 1))) c := by
    show subf h _ (ix2 c q) * broadcastTo ⟨2, ![n, B]⟩ (rsqrt _) hb (ix2 c q) * broadcastTo ⟨2, ![n, B]⟩ g hg (ix2 c q)
      + broadcastTo ⟨2, ![n, B]⟩ b hg (ix2 c q) = _
    rw [hcen c, hrs, hgc, hbc]
    rfl
  exact congrArg leaky hy

end NormalDecoder

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«121626_j12489764897254_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«121626_j12489764897254_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.KernelBlock.lean ====
/-
  The kernel body's stored value at an entry of a tile.

  A tile holds B = 16384 rows. The body multiplies the first weight matrix by the tile's feature block with both
  operands contracted on their last axis, so the 32 channels of row q sit in column q of a [32, 16384] block;
  it normalises over the channel axis, applies the rectifier, multiplies by the second weight matrix (a plain
  product, channels again down the columns), normalises and rectifies again, multiplies by the third weight
  matrix, adds the bias column, and divides each column by the larger of its Euclidean length and the floor.
  Read at entry (c, q) the stored [3, 16384] value is therefore channel c of the decoder of the specification
  applied to row q of the feature block.
-/
import proofs.«121626_j12489764897254_2_alg».proof.Proof.Gen.KernelIdeal.Skeleton
import proofs.«121626_j12489764897254_2_alg».proof.Proof.ColumnNorm
import proofs.«121626_j12489764897254_2_alg».proof.Proof.LibTransposedRecord
import proofs.«121626_j12489764897254_2_alg».proof.Proof.LibDotRecord

noncomputable section

namespace NormalDecoder

open Cert.KernelIdeal Cert.KernelIdeal.Gen Idealize.ShloMosaic Idealize.ShloMosaic.ValueIdx ColumnSum

/-- The second layer's input: entry (c, q) of the first payload is channel c of the second linear map applied
    to the normalised, rectified first layer of row q. -/
theorem pay2_apply (x0 : Vec Ideal S16384x128 .f32) (w1 : Vec Ideal S32x128 .f32) (g1 b1 : Vec Ideal S32x1 .f32)
    (w2 : Vec Ideal S16x32 .f32) (c : Fin 16) (q : Fin 16384) :
    k0_pay2 x0 w1 g1 b1 w2 (ix2 c q)
      = lin (fun c k => w2 (ix2 c k)) (act count32 (lin (fun c k => w1 (ix2 c k)) (fun k => x0 (ix2 q k)))
          (fun j => g1 (ix2 j (0 : Fin 1))) (fun j => b1 (ix2 j (0 : Fin 1)))) c := by
  have e : k0_pay2 x0 w1 g1 b1 w2 = matmul dot_S16x32_S32x16384_S16x16384_1_0_0_1_n_n none (truncf .bf16 w2 bitsLt_bf16_f32)
      (truncf .bf16 (colNormLeakyVec (matmul dot_S32x128_S16384x128_S32x16384_1_1_0_0_n_n none (truncf .bf16 w1 bitsLt_bf16_f32)
          (truncf .bf16 x0 bitsLt_bf16_f32) (constant S32x16384 .f32 0x00000000#32))
        (shapeCast S32x1 g1 shapeCasts_S32x1_S32x1) (shapeCast S32x1 b1 shapeCasts_S32x1_S32x1) 0x42000000#32
        reduces_S32x16384_S16384 (.inl rfl) rfl shapeCasts_S16384_S1x16384 broadcasts_S1x16384_S32x16384
        broadcasts_S32x1_S32x16384) bitsLt_bf16_f32)
      (constant S16x16384 .f32 0x00000000#32) := rfl
  rw [e]
  refine (DotRecord.matmul_zero_apply dot_S16x32_S32x16384_S16x16384_1_0_0_1_n_n rfl rfl rfl rfl rfl rfl _ _ none c q).trans ?_
  refine Finset.sum_congr rfl fun k _ => ?_
  refine congrArg (w2 (ix2 c k) * ·) ?_
  refine (colNormLeakyVec_apply _ _ _ _ _ _ _ _ _ _ k q).trans ?_
  rw [shapeCast_self, shapeCast_self]
  refine congrArg (fun f => act count32 f (fun j => g1 (ix2 j (0 : Fin 1))) (fun j => b1 (ix2 j (0 : Fin 1))) k) ?_
  funext j
  exact TransposedRecord.matmul_zero_apply dot_S32x128_S16384x128_S32x16384_1_1_0_0_n_n rfl rfl rfl rfl rfl rfl _ _ none j q

/-- The third layer: entry (c, q) is channel c of the third linear map applied to the normalised, rectified
    second layer of column q, plus the bias. -/
theorem pay3_apply (v39 : FVec Ideal S16x16384 .f32) (g2 b2 : Vec Ideal S16x1 .f32) (w3 : Vec Ideal S3x16 .f32)
    (b3 : Vec Ideal S3x1 .f32) (c : Fin 3) (q : Fin 16384) :
    k0_pay3 v39 g2 b2 w3 b3 (ix2 c q)
      = lin (fun c k => w3 (ix2 c k)) (act count16 (fun j => v39 (ix2 j q))
          (fun j => g2 (ix2 j (0 : Fin 1))) (fun j => b2 (ix2 j (0 : Fin 1)))) c + b3 (ix2 c (0 : Fin 1)) := by
  have e : k0_pay3 v39 g2 b2 w3 b3 = addf (matmul dot_S3x16_S16x16384_S3x16384_1_0_0_1_n_n none (truncf .bf16 w3 bitsLt_bf16_f32)
      (truncf .bf16 (colNormLeakyVec v39 (shapeCast S16x1 g2 shapeCasts_S16x1_S16x1) (shapeCast S16x1 b2 shapeCasts_S16x1_S16x1)
        0x41800000#32 reduces_S16x16384_S16384 (.inl rfl) rfl shapeCasts_S16384_S1x16384 broadcasts_S1x16384_S16x16384
        broadcasts_S16x1_S16x16384) bitsLt_bf16_f32)
      (constant S3x16384 .f32 0x00000000#32))
      (broadcastTo S3x16384 (shapeCast S3x1 b3 shapeCasts_S3x1_S3x1) broadcasts_S3x1_S3x16384) := rfl
  rw [e, addf_apply]
  refine congrArg₂ (· + ·) ?_ ((Gcn.Lib.broadcastTo_a1_ab_apply _ broadcasts_S3x1_S3x16384 c q).trans (by rw [shapeCast_self]))
  refine (DotRecord.matmul_zero_apply dot_S3x16_S16x16384_S3x16384_1_0_0_1_n_n rfl rfl rfl rfl rfl rfl _ _ none c q).trans ?_
  refine Finset.sum_congr rfl fun k _ => ?_
  refine congrArg (w3 (ix2 c k) * ·) ?_
  refine (colNormLeakyVec_apply _ _ _ _ _ _ _ _ _ _ k q).trans ?_
  rw [shapeCast_self, shapeCast_self]

/-- The Euclidean length of column q of the third layer. -/
theorem pay4_apply (v39 : FVec Ideal S16x16384 .f32) (g2 b2 : Vec Ideal S16x1 .f32) (w3 : Vec Ideal S3x16 .f32)
    (b3 : Vec Ideal S3x1 .f32) (u : Fin 1) (q : Fin 16384) :
    k0_pay4 v39 g2 b2 w3 b3 (ix2 u q)
      = Ideal.sqrt (∑ j : Fin 3, k0_pay3 v39 g2 b2 w3 b3 (ix2 j q) * k0_pay3 v39 g2 b2 w3 b3 (ix2 j q)) := by
  have e : k0_pay4 v39 g2 b2 w3 b3 = Idealize.ShloMosaic.sqrt (F := Ideal) (shapeCast S1x16384 (multiReduction (F := Ideal) (s := S3x16384) (φ := .f32) .add [0] S16384
      (mulf (F := Ideal) (k0_pay3 v39 g2 b2 w3 b3) (k0_pay3 v39 g2 b2 w3 b3)) 0x00000000#32 reduces_S3x16384_S16384 (.inl rfl) rfl)
      shapeCasts_S16384_S1x16384) := rfl
  have hs : ∀ (X : FVec Ideal S1x16384 .f32) (i : S1x16384.Idx),
      Idealize.ShloMosaic.sqrt (F := Ideal) X i = Ideal.sqrt (X i) := fun _ _ => rfl
  rw [e, hs]
  refine congrArg Ideal.sqrt ?_
  exact (shapeCast_a_1a_apply _ shapeCasts_S16384_S1x16384 u q).trans
    (colSum_apply _ reduces_S3x16384_S16384 (.inl rfl) rfl q)

/-- The stored value: each entry of the third layer divided by the larger of its column's length and the floor. -/
theorem pay1_apply (v78 : FVec Ideal S3x16384 .f32) (v82 : FVec Ideal S1x16384 .f32) (c : Fin 3) (q : Fin 16384) :
    k0_pay1 v78 v82 (ix2 c q) = Ideal.div (v78 (ix2 c q)) (max (v82 (ix2 (0 : Fin 1) q)) normFloor) := by
  have e : k0_pay1 v78 v82 = divf v78 (broadcastTo S3x16384 (maximumf v82 (broadcast S1x16384 (Scalar.ofBits .f32 0x2B8CBCCC#32)))
      broadcasts_S1x16384_S3x16384) := rfl
  rw [e, divf_apply]
  exact congrArg (Ideal.div (v78 (ix2 c q))) (broadcastTo_1b_ab_apply _ broadcasts_S1x16384_S3x16384 c q)

/-- THE BODY'S STORE at entry (c, q): channel c of the decoder applied to row q of the feature block. -/
theorem stored_apply (x0 : Vec Ideal S16384x128 .f32) (w1 : Vec Ideal S32x128 .f32) (g1 b1 : Vec Ideal S32x1 .f32)
    (w2 : Vec Ideal S16x32 .f32) (g2 b2 : Vec Ideal S16x1 .f32) (w3 : Vec Ideal S3x16 .f32) (b3 : Vec Ideal S3x1 .f32)
    (c : Fin 3) (q : Fin 16384) :
    k0_pay1 (k0_pay3 (k0_pay2 x0 w1 g1 b1 w2) g2 b2 w3 b3) (k0_pay4 (k0_pay2 x0 w1 g1 b1 w2) g2 b2 w3 b3) (ix2 c q)
      = rowOut (fun c k => w1 (ix2 c k)) (fun j => g1 (ix2 j (0 : Fin 1))) (fun j => b1 (ix2 j (0 : Fin 1)))
          (fun c k => w2 (ix2 c k)) (fun j => g2 (ix2 j (0 : Fin 1))) (fun j => b2 (ix2 j (0 : Fin 1)))
          (fun c k => w3 (ix2 c k)) (fun j => b3 (ix2 j (0 : Fin 1))) (fun k => x0 (ix2 q k)) c := by
  rw [pay1_apply, pay4_apply]
  simp only [pay3_apply, pay2_apply]
  rfl

end NormalDecoder

end
-- ==== Proof.KernelValue.lean ====
/-
  The kernel program's result as one function of its arguments.

  The grid has 64 points; point t stages rows 16384·t … 16384·t + 16383 of the features, keeps every weight,
  gain and bias array whole, and writes back columns 16384·t … of the [3, 1048576] output array. By the
  entry-wise reading of the body's store, block t of the output is block t of the array whose entry (c, r) is
  channel c of the decoder on feature row r; the 64 blocks tile the output, so after the region the output
  array is that array. The host then transposes it to [1048576, 3], and the gain and bias columns the region
  found are the host's reshapes of the [n] arguments, so the program's result at (r, c) is the specification's
  G at (r, c) of the nine arguments.
-/
import proofs.«121626_j12489764897254_2_alg».proof.Proof.Gen.KernelIdeal.Frame
import proofs.«121626_j12489764897254_2_alg».proof.Proof.KernelBlock
import Idealize.ShloMosaic.Lib.Pipeline.Value
import Idealize.ShloMosaic.Lib.StableHlo.Run

noncomputable section

namespace Cert.KernelIdeal.Decoder

open Cert.KernelIdeal Cert.KernelIdeal.Gen Idealize.ShloMosaic Idealize.ShloMosaic.TcCoe Idealize.SL.Sem
open Idealize.ShloMosaic.ValueIdx NormalDecoder
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output array of the region in terms of the arrays the region finds: entry (c, r) is channel c of the
    decoder on row r, the gains and biases read from their [n, 1] columns. -/
def Gt (A0 : S1048576x128.Idx → EReal) (A1 : S32x128.Idx → EReal) (A2 A3 : S32x1.Idx → EReal) (A4 : S16x32.Idx → EReal)
    (A5 A6 : S16x1.Idx → EReal) (A7 : S3x16.Idx → EReal) (A8 : S3x1.Idx → EReal) (c : Fin 3) (r : Fin 1048576) : EReal :=
  rowOut (fun a k => A1 (ix2 a k)) (fun j => A2 (ix2 j (0 : Fin 1))) (fun j => A3 (ix2 j (0 : Fin 1)))
    (fun a k => A4 (ix2 a k)) (fun j => A5 (ix2 j (0 : Fin 1))) (fun j => A6 (ix2 j (0 : Fin 1)))
    (fun a k => A7 (ix2 a k)) (fun j => A8 (ix2 j (0 : Fin 1))) (fun k => A0 (ix2 r k)) c

def GtArr (A0 : S1048576x128.Idx → EReal) (A1 : S32x128.Idx → EReal) (A2 A3 : S32x1.Idx → EReal) (A4 : S16x32.Idx → EReal)
    (A5 A6 : S16x1.Idx → EReal) (A7 : S3x16.Idx → EReal) (A8 : S3x1.Idx → EReal) : S3x1048576.Idx → EReal :=
  fun i => Gt A0 A1 A2 A3 A4 A5 A6 A7 A8 (i 0) (i 1)

/-- The printed index maps, decided over the 64 grid points: the feature window moves down the rows with the
    output window's column block, every other input window stays at block (0, 0), and the output's block index is
    (0, t) with t below 64. -/
theorem idx_facts : ∀ t : Fin cfg0.N, win0_0.index t (0 : Fin 2) = win0_9.index t (1 : Fin 2)
    ∧ win0_0.index t (1 : Fin 2) = 0 ∧ win0_9.index t (0 : Fin 2) = 0 ∧ win0_9.index t (1 : Fin 2) ≤ 63
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every column block of the output is some point's. -/
theorem idx_onto : ∀ q1 : Fin 64, ∃ t : Fin cfg0.N, win0_9.index t = ![0, q1.val] :=
  (by decide +kernel : ∀ q1 : Fin 64, ∃ t : Fin grid0.N, win0_9.index t = ![0, q1.val])

/-! ## The blocks the body loads, read off the arrays the region finds -/

theorem blk0 (c : Dev nD) (t : Fin cfg0.N) (q : Fin 16384) (k : Fin 128) (r : Fin 1048576)
    (hr : r.val = win0_9.index t (1 : Fin 2) * 16384 + q.val) :
    iblk m c 0 t (ix2 q k) = V m c main_arg0 (ix2 r k) := by
  obtain ⟨e0, e1, -⟩ := idx_facts t
  show V m c main_arg0 (((cfg0.win 0).blk t).view.emb (ix2 q k)) = V m c main_arg0 (ix2 r k)
  refine congrArg _ ?_
  funext a; apply Fin.ext
  match a with
  | ⟨0, _⟩ => show win0_0.index t (0 : Fin 2) * 16384 + 1 * q.val = r.val; omega
  | ⟨1, _⟩ => show win0_0.index t (1 : Fin 2) * 128 + 1 * k.val = k.val; omega

theorem blk1 (c : Dev nD) (t : Fin cfg0.N) (a' : Fin 32) (k : Fin 128) :
    iblk m c 1 t (ix2 a' k) = V m c main_arg1 (ix2 a' k) := by
  obtain ⟨-, -, -, -, e0, e1, -⟩ := idx_facts t
  show V m c main_arg1 (((cfg0.win 1).blk t).view.emb (ix2 a' k)) = V m c main_arg1 (ix2 a' k)
  refine congrArg _ ?_
  funext a; apply Fin.ext
  match a with
  | ⟨0, _⟩ => show win0_1.index t (0 : Fin 2) * 32 + 1 * a'.val = a'.val; omega
  | ⟨1, _⟩ => show win0_1.index t (1 : Fin 2) * 128 + 1 * k.val = k.val; omega

theorem blk2 (c : Dev nD) (t : Fin cfg0.N) (a' : Fin 32) (k : Fin 1) :
    iblk m c 2 t (ix2 a' k) = V m c main_v0 (ix2 a' k) := by
  obtain ⟨-, -, -, -, -, -, e0, e1, -⟩ := idx_facts t
  show V m c main_v0 (((cfg0.win 2).blk t).view.emb (ix2 a' k)) = V m c main_v0 (ix2 a' k)
  refine congrArg _ ?_
  funext a; apply Fin.ext
  match a with
  | ⟨0, _⟩ => show win0_2.index t (0 : Fin 2) * 32 + 1 * a'.val = a'.val; omega
  | ⟨1, _⟩ => show win0_2.index t (1 : Fin 2) * 1 + 1 * k.val = k.val; omega

theorem blk3 (c : Dev nD) (t : Fin cfg0.N) (a' : Fin 32) (k : Fin 1) :
    iblk m c 3 t (ix2 a' k) = V m c main_v1 (ix2 a' k) := by
  obtain ⟨-, -, -, -, -, -, -, -, e0, e1, -⟩ := idx_facts t
  show V m c main_v1 (((cfg0.win 3).blk t).view.emb (ix2 a' k)) = V m c main_v1 (ix2 a' k)
  refine congrArg _ ?_
  funext a; apply Fin.ext
  match a with
  | ⟨0, _⟩ => show win0_3.index t (0 : Fin 2) * 32 + 1 * a'.val = a'.val; omega
  | ⟨1, _⟩ => show win0_3.index t (1 : Fin 2) * 1 + 1 * k.val = k.val; omega

theorem blk4 (c : Dev nD) (t : Fin cfg0.N) (a' : Fin 16) (k : Fin 32) :
    iblk m c 4 t (ix2 a' k) = V m c main_arg4 (ix2 a' k) := by
  obtain ⟨-, -, -, -, -, -, -, -, -, -, e0, e1, -⟩ := idx_facts t
  show V m c main_arg4 (((cfg0.win 4).blk t).view.emb (ix2 a' k)) = V m c main_arg4 (ix2 a' k)
  refine congrArg _ ?_
  funext a; apply Fin.ext
  match a with
  | ⟨0, _⟩ => show win0_4.index t (0 : Fin 2) * 16 + 1 * a'.val = a'.val; omega
  | ⟨1, _⟩ => show win0_4.index t (1 : Fin 2) * 32 + 1 * k.val = k.val; omega

theorem blk5 (c : Dev nD) (t : Fin cfg0.N) (a' : Fin 16) (k : Fin 1) :
    iblk m c 5 t (ix2 a' k) = V m c main_v2 (ix2 a' k) := by
  obtain ⟨-, -, -, -, -, -, -, -, -, -, -, -, e0, e1, -⟩ := idx_facts t
  show V m c main_v2 (((cfg0.win 5).blk t).view.emb (ix2 a' k)) = V m c main_v2 (ix2 a' k)
  refine congrArg _ ?_
  funext a; apply Fin.ext
  match a with
  | ⟨0, _⟩ => show win0_5.index t (0 : Fin 2) * 16 + 1 * a'.val = a'.val; omega
  | ⟨1, _⟩ => show win0_5.index t (1 : Fin 2) * 1 + 1 * k.val = k.val; omega

theorem blk6 (c : Dev nD) (t : Fin cfg0.N) (a' : Fin 16) (k : Fin 1) :
    iblk m c 6 t (ix2 a' k) = V m c main_v3 (ix2 a' k) := by
  obtain ⟨-, -, -, -, -, -, -, -, -, -, -, -, -, -, e0, e1, -⟩ := idx_facts t
  show V m c main_v3 (((cfg0.win 6).blk t).view.emb (ix2 a' k)) = V m c main_v3 (ix2 a' k)
  refine congrArg _ ?_
  funext a; apply Fin.ext
  match a with
  | ⟨0, _⟩ => show win0_6.index t (0 : Fin 2) * 16 + 1 * a'.val = a'.val; omega
  | ⟨1, _⟩ => show win0_6.index t (1 : Fin 2) * 1 + 1 * k.val = k.val; omega

theorem blk7 (c : Dev nD) (t : Fin cfg0.N) (a' : Fin 3) (k : Fin 16) :
    iblk m c 7 t (ix2 a' k) = V m c main_arg7 (ix2 a' k) := by
  obtain ⟨-, -, -, -, -, -, -, -, -, -, -, -, -, -, -, -, e0, e1, -⟩ := idx_facts t
  show V m c main_arg7 (((cfg0.win 7).blk t).view.emb (ix2 a' k)) = V m c main_arg7 (ix2 a' k)
  refine congrArg _ ?_
  funext a; apply Fin.ext
  match a with
  | ⟨0, _⟩ => show win0_7.index t (0 : Fin 2) * 3 + 1 * a'.val = a'.val; omega
  | ⟨1, _⟩ => show win0_7.index t (1 : Fin 2) * 16 + 1 * k.val = k.val; omega

theorem blk8 (c : Dev nD) (t : Fin cfg0.N) (a' : Fin 3) (k : Fin 1) :
    iblk m c 8 t (ix2 a' k) = V m c main_v4 (ix2 a' k) := by
  obtain ⟨-, -, -, -, -, -, -, -, -, -, -, -, -, -, -, -, -, -, e0, e1⟩ := idx_facts t
  show V m c main_v4 (((cfg0.win 8).blk t).view.emb (ix2 a' k)) = V m c main_v4 (ix2 a' k)
  refine congrArg _ ?_
  funext a; apply Fin.ext
  match a with
  | ⟨0, _⟩ => show win0_8.index t (0 : Fin 2) * 3 + 1 * a'.val = a'.val; omega
  | ⟨1, _⟩ => show win0_8.index t (1 : Fin 2) * 1 + 1 * k.val = k.val; omega

/-! ## What a point writes back, the cover, the array after the region -/

/-- WHAT POINT t WRITES BACK is block t of the decoder's array over the arrays the region finds. -/
theorem flushed9_eq (c : Dev nD) (t : Fin cfg0.N) :
    (dats m 0 c).flushed 9 t = ((cfg0.win 9).blk t).view.read (Elt Ideal)
      (GtArr (V m c main_arg0) (V m c main_arg1) (V m c main_v0) (V m c main_v1) (V m c main_arg4) (V m c main_v2)
        (V m c main_v3) (V m c main_arg7) (V m c main_v4)) := by
  show (cfg0.win 9).cut (grid0.coords t) ((dats m 0 c).after 9 t) = _
  rw [after0_9]
  unfold out0_9
  rw [View.canon_unit_zero hz]
  simp only [View.ld_unit_zero (S := S16384x128) hz, View.ld_unit_zero (S := S32x128) hz, View.ld_unit_zero (S := S32x1) hz,
    View.ld_unit_zero (S := S16x32) hz, View.ld_unit_zero (S := S16x1) hz, View.ld_unit_zero (S := S3x16) hz,
    View.ld_unit_zero (S := S3x1) hz]
  funext y
  obtain ⟨p, q, rfl⟩ : ∃ (p : Fin 3) (q : Fin 16384), y = ix2 p q := ⟨y 0, y 1, eq_ix2 y⟩
  obtain ⟨-, -, e2, e3, -⟩ := idx_facts t
  have hq := q.isLt
  have hrow : win0_9.index t (1 : Fin 2) * 16384 + q.val < 1048576 := by omega
  refine (stored_apply (iblk m c 0 t) (iblk m c 1 t) (iblk m c 2 t) (iblk m c 3 t) (iblk m c 4 t) (iblk m c 5 t)
    (iblk m c 6 t) (iblk m c 7 t) (iblk m c 8 t) p q).trans ?_
  have e0 : (fun k : Fin 128 => iblk m c 0 t (ix2 q k))
      = fun k => V m c main_arg0 (ix2 (⟨win0_9.index t (1 : Fin 2) * 16384 + q.val, hrow⟩ : Fin 1048576) k) :=
    funext fun k => blk0 m c t q k _ rfl
  have e1 : (fun (a : Fin 32) (k : Fin 128) => iblk m c 1 t (ix2 a k)) = fun a k => V m c main_arg1 (ix2 a k) :=
    funext fun a => funext fun k => blk1 m c t a k
  have e2' : (fun j : Fin 32 => iblk m c 2 t (ix2 j (0 : Fin 1))) = fun j => V m c main_v0 (ix2 j (0 : Fin 1)) :=
    funext fun j => blk2 m c t j 0
  have e3' : (fun j : Fin 32 => iblk m c 3 t (ix2 j (0 : Fin 1))) = fun j => V m c main_v1 (ix2 j (0 : Fin 1)) :=
    funext fun j => blk3 m c t j 0
  have e4 : (fun (a : Fin 16) (k : Fin 32) => iblk m c 4 t (ix2 a k)) = fun a k => V m c main_arg4 (ix2 a k) :=
    funext fun a => funext fun k => blk4 m c t a k
  have e5 : (fun j : Fin 16 => iblk m c 5 t (ix2 j (0 : Fin 1))) = fun j => V m c main_v2 (ix2 j (0 : Fin 1)) :=
    funext fun j => blk5 m c t j 0
  have e6 : (fun j : Fin 16 => iblk m c 6 t (ix2 j (0 : Fin 1))) = fun j => V m c main_v3 (ix2 j (0 : Fin 1)) :=
    funext fun j => blk6 m c t j 0
  have e7 : (fun (a : Fin 3) (k : Fin 16) => iblk m c 7 t (ix2 a k)) = fun a k => V m c main_arg7 (ix2 a k) :=
    funext fun a => funext fun k => blk7 m c t a k
  have e8 : (fun j : Fin 3 => iblk m c 8 t (ix2 j (0 : Fin 1))) = fun j => V m c main_v4 (ix2 j (0 : Fin 1)) :=
    funext fun j => blk8 m c t j 0
  rw [e0, e1, e2', e3', e4, e5, e6, e7, e8]
  have hi0 : (((cfg0.win 9).blk t).view.emb (ix2 p q)) (0 : Fin 2) = p :=
    Fin.ext (show win0_9.index t (0 : Fin 2) * 3 + 1 * p.val = p.val by omega)
  have hi1 : (((cfg0.win 9).blk t).view.emb (ix2 p q)) (1 : Fin 2)
      = (⟨win0_9.index t (1 : Fin 2) * 16384 + q.val, hrow⟩ : Fin 1048576) :=
    Fin.ext (show win0_9.index t (1 : Fin 2) * 16384 + 1 * q.val = win0_9.index t (1 : Fin 2) * 16384 + q.val by omega)
  show _ = Gt _ _ _ _ _ _ _ _ _ ((((cfg0.win 9).blk t).view.emb (ix2 p q)) (0 : Fin 2)) ((((cfg0.win 9).blk t).view.emb (ix2 p q)) (1 : Fin 2))
  rw [hi0, hi1]
  rfl

/-- An index of the output array is in point t's block iff each coordinate is in the block's range. -/
theorem mem_blk9 (t : Fin cfg0.N) (i : S3x1048576.Idx) :
    i ∈ ((cfg0.win 9).blk t).view.set ↔ ∀ a : Fin 2, win0_9.index t a * S3x16384.size a ≤ (i a).val
      ∧ (i a).val < win0_9.index t a * S3x16384.size a + S3x16384.size a := by
  show i ∈ ((View.whole main_v5).slice (win0_9.rect t)).set ↔ _
  rw [View.set_slice_whole, Rect.mem_set_unit]
  exact Iff.rfl

/-- The 64 column blocks cover the output array. -/
theorem cover9 (i : S3x1048576.Idx) : ∃ t : Fin cfg0.N, (cfg0.win 9).flush t = true ∧ i ∈ ((cfg0.win 9).blk t).view.set := by
  have hi0 : (i 0).val < 3 := (i 0).isLt
  have hi1 : (i 1).val < 1048576 := (i 1).isLt
  obtain ⟨t, ht⟩ := idx_onto ⟨(i 1).val / 16384, by omega⟩
  have q0 : win0_9.index t (0 : Fin 2) = 0 := congrFun ht 0
  have q1 : win0_9.index t (1 : Fin 2) = (i 1).val / 16384 := congrFun ht 1
  refine ⟨t, flush0_9 t, ?_⟩
  rw [mem_blk9]
  intro a
  match a with
  | ⟨0, _⟩ => show win0_9.index t (0 : Fin 2) * 3 ≤ (i 0).val ∧ (i 0).val < win0_9.index t (0 : Fin 2) * 3 + 3; omega
  | ⟨1, _⟩ => show win0_9.index t (1 : Fin 2) * 16384 ≤ (i 1).val ∧ (i 1).val < win0_9.index t (1 : Fin 2) * 16384 + 16384; omega

/-- THE OUTPUT ARRAY after the region. -/
theorem final9 (c : Dev nD) : (dats m 0 c).arrAt 9 cfg0.N
    = GtArr (V m c main_arg0) (V m c main_arg1) (V m c main_v0) (V m c main_v1) (V m c main_arg4) (V m c main_v2)
        (V m c main_v3) (V m c main_arg7) (V m c main_v4) :=
  (dats m 0 c).arrAt_eq_of_cover 9 _ (fun t _ => flushed9_eq m c t) cover9

end Cert.KernelIdeal.Decoder

end
-- ==== Proof.KernelResult.lean ====
/-
  From the region's output array to the program's result.

  After the region the host transposes the [3, 1048576] output to [1048576, 3]: entry (r, c) of the result is
  entry (c, r) of the region's array. The gain and bias columns that the region stages are the host's reshapes
  of the one-axis arguments, so column entry (j, 0) is the argument's entry j; the feature and weight arrays are
  the arguments themselves. Together with the region's array this gives the program's result as the
  specification's array of the nine arguments, and the run with that post.
-/
import proofs.«121626_j12489764897254_2_alg».proof.Proof.KernelValue

noncomputable section

namespace Cert.KernelIdeal.Decoder

open Cert.KernelIdeal Cert.KernelIdeal.Gen Idealize.ShloMosaic Idealize.ShloMosaic.TcCoe Idealize.SL.Sem
open Idealize.ShloMosaic.ValueIdx NormalDecoder
open Idealize.ShloMosaic.Pipeline (Dat)

variable (m : (ℓ : Loc nD τ sig) → Buf (Elt Ideal) ℓ) (ρ : Dev nD → PrngReg)

/-! ## The columns the region finds are the host's reshapes -/

theorem V_main_v0 (c : Dev nD) : (V m c main_v0 : S32x1.Idx → EReal)
    = shapeCast S32x1 (m ((c : Thread nD τ).loc main_arg2)) shapeCasts_S32_S32x1 := by
  show StableHlo.after hostOps0 (fun b => m (c, b)) (Proc.devRef .tc main_v0) = _
  after_results; rfl

theorem V_main_v1 (c : Dev nD) : (V m c main_v1 : S32x1.Idx → EReal)
    = shapeCast S32x1 (m ((c : Thread nD τ).loc main_arg3)) shapeCasts_S32_S32x1 := by
  show StableHlo.after hostOps0 (fun b => m (c, b)) (Proc.devRef .tc main_v1) = _
  after_results; rfl

theorem V_main_v2 (c : Dev nD) : (V m c main_v2 : S16x1.Idx → EReal)
    = shapeCast S16x1 (m ((c : Thread nD τ).loc main_arg5)) shapeCasts_S16_S16x1 := by
  show StableHlo.after hostOps0 (fun b => m (c, b)) (Proc.devRef .tc main_v2) = _
  after_results; rfl

theorem V_main_v3 (c : Dev nD) : (V m c main_v3 : S16x1.Idx → EReal)
    = shapeCast S16x1 (m ((c : Thread nD τ).loc main_arg6)) shapeCasts_S16_S16x1 := by
  show StableHlo.after hostOps0 (fun b => m (c, b)) (Proc.devRef .tc main_v3) = _
  after_results; rfl

theorem V_main_v4 (c : Dev nD) : (V m c main_v4 : S3x1.Idx → EReal)
    = shapeCast S3x1 (m ((c : Thread nD τ).loc main_arg8)) shapeCasts_S3_S3x1 := by
  show StableHlo.after hostOps0 (fun b => m (c, b)) (Proc.devRef .tc main_v4) = _
  after_results; rfl

/-! ## The host's transpose of the region's array -/

theorem tail_eq (c : Dev nD) :
    Pipeline.afterTail₀ cfgs (dats m) 0 (V0 m) [hostOps1] c main_v6
      = transpose S1048576x3 [1, 0] ((dats m 0 c).arrAt 9 cfg0.N) transposes_S3x1048576_S1048576x3_1_0 := by
  unfold Pipeline.afterTail₀
  show StableHlo.after hostOps1 _ (Proc.devRef .tc main_v6) = _
  after_results
  exact congrArg (fun a => transpose S1048576x3 [1, 0] a transposes_S3x1048576_S1048576x3_1_0)
    (Pipeline.withArrays_arr spec0 launch0.win.arr_inj c _ _ 9)

/-- THE PROGRAM'S RESULT: the specification's array of the nine arguments. -/
theorem result_eq (c : Dev nD) :
    Pipeline.afterTail₀ cfgs (dats m) 0 (V0 m) [hostOps1] c main_v6
      = Garr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [tail_eq, final9]
  funext i
  obtain ⟨r, c', rfl⟩ : ∃ (r : Fin 1048576) (c' : Fin 3), i = ix2 r c' := ⟨i 0, i 1, eq_ix2 i⟩
  rw [transpose_apply [1, 0] _ transposes_S3x1048576_S1048576x3_1_0 (ix2 r c') (ix2 c' r) (fun b => match b with
    | ⟨0, _⟩ => rfl
    | ⟨1, _⟩ => rfl)]
  have g1 : (fun j : Fin 32 => V m c main_v0 (ix2 j (0 : Fin 1))) = fun j => m ((c : Thread nD τ).loc main_arg2) (ix1 j) :=
    funext fun j => (congrFun (V_main_v0 m c) (ix2 j (0 : Fin 1))).trans (Gcn.Lib.shapeCast_a_a1_apply _ shapeCasts_S32_S32x1 j 0)
  have b1 : (fun j : Fin 32 => V m c main_v1 (ix2 j (0 : Fin 1))) = fun j => m ((c : Thread nD τ).loc main_arg3) (ix1 j) :=
    funext fun j => (congrFun (V_main_v1 m c) (ix2 j (0 : Fin 1))).trans (Gcn.Lib.shapeCast_a_a1_apply _ shapeCasts_S32_S32x1 j 0)
  have g2 : (fun j : Fin 16 => V m c main_v2 (ix2 j (0 : Fin 1))) = fun j => m ((c : Thread nD τ).loc main_arg5) (ix1 j) :=
    funext fun j => (congrFun (V_main_v2 m c) (ix2 j (0 : Fin 1))).trans (Gcn.Lib.shapeCast_a_a1_apply _ shapeCasts_S16_S16x1 j 0)
  have b2 : (fun j : Fin 16 => V m c main_v3 (ix2 j (0 : Fin 1))) = fun j => m ((c : Thread nD τ).loc main_arg6) (ix1 j) :=
    funext fun j => (congrFun (V_main_v3 m c) (ix2 j (0 : Fin 1))).trans (Gcn.Lib.shapeCast_a_a1_apply _ shapeCasts_S16_S16x1 j 0)
  have b3 : (fun j : Fin 3 => V m c main_v4 (ix2 j (0 : Fin 1))) = fun j => m ((c : Thread nD τ).loc main_arg8) (ix1 j) :=
    funext fun j => (congrFun (V_main_v4 m c) (ix2 j (0 : Fin 1))).trans (Gcn.Lib.shapeCast_a_a1_apply _ shapeCasts_S3_S3x1 j 0)
  show Gt (V m c main_arg0) (V m c main_arg1) (V m c main_v0) (V m c main_v1) (V m c main_arg4) (V m c main_v2)
    (V m c main_v3) (V m c main_arg7) (V m c main_v4) c' r = G _ _ _ _ _ _ _ _ _ r c'
  unfold Gt G
  rw [g1, b1, g2, b2, b3, V_main_arg0, V_main_arg1, V_main_arg4, V_main_arg7]

/-- The program's run with its result named and the arguments unchanged. -/
theorem run : θ_run defs (onTc (τ := τ) (main (F := Ideal))) ⟨m, fun _ => 0, ρ⟩ (fun r => ∀ c : Dev nD,
      r.2.mem ((c.tc : Thread nD τ).loc main_v6)
        = Garr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.Decoder

end
-- ==== Proof.RefLayers.lean ====
/-
  The reference program's three layers are the specification's.

  The reference keeps rows down and channels across: each linear map is a product of the activations [N, k] with
  the transposed weights [k, n], so an entry is the sum over j of activation (r, j) times weight (c, j) — the
  specification's terms with the two factors exchanged, equal by commutativity of multiplication on the
  extended reals. The mean and variance are the host's sums along axis 1 started from a zero, divided by the
  channel count; the zero start adds nothing. Every other operation is pointwise and is the specification's own,
  read through the broadcasts' index maps.
-/
import proofs.«121626_j12489764897254_2_alg».proof.Proof.RefReadP
import proofs.«121626_j12489764897254_2_alg».proof.Proof.Spec

noncomputable section

namespace Cert.ReferenceIdeal.RefDecoder

open Cert.ReferenceIdeal Cert.ReferenceIdeal.Gen Cert.ReferenceIdeal.ReadP Idealize.ShloMosaic Idealize.ShloMosaic.ValueIdx
open NormalDecoder

local macro "idx_rfl2" : tactic => `(tactic| (funext a; apply Fin.ext; match a with | ⟨0, _⟩ => rfl | ⟨1, _⟩ => rfl))
local macro "idx_rfl1" : tactic => `(tactic| (funext a; apply Fin.ext; match a with | ⟨0, _⟩ => rfl))

/-- A sum started from the zero word is the sum. -/
theorem ofBits_zero_add (s : EReal) : FloatOps.ofBits (F := Ideal) .f32 0x00000000#32 + s = s := by
  show Ideal.ofBits .f32 0x00000000#32 + s = s
  rw [Ideal.ofBits_zero_f32, zero_add]

/-! ## The index maps of the layout operations, at explicit coordinates -/

section Indices
variable (r : Fin 1048576) (u : Fin 1)

theorem i2 (k : Fin 32) : idx_main_v2 (ix1 r) k = ix2 r k := by idx_rfl2
theorem i3 : idx_main_v3 (ix2 r u) = ix1 r := by idx_rfl1
theorem i6 (c : Fin 32) : idx_main_v6 (ix2 r c) = ix2 r (0 : Fin 1) := by idx_rfl2
theorem i9 (k : Fin 32) : idx_main_v9 (ix1 r) k = ix2 r k := by idx_rfl2
theorem i10 : idx_main_v10 (ix2 r u) = ix1 r := by idx_rfl1
theorem i13 (c : Fin 32) : idx_main_v13 (ix2 r c) = ix2 r (0 : Fin 1) := by idx_rfl2
theorem i18 (c : Fin 32) : idx_main_v18 (ix2 r c) = ix2 r (0 : Fin 1) := by idx_rfl2
theorem i20 (c : Fin 32) : idx_main_v20 (ix2 u c) = ix1 c := by idx_rfl1
theorem i21 (c : Fin 32) : idx_main_v21 (ix2 r c) = ix2 (0 : Fin 1) c := by idx_rfl2
theorem i23 (c : Fin 32) : idx_main_v23 (ix2 u c) = ix1 c := by idx_rfl1
theorem i24 (c : Fin 32) : idx_main_v24 (ix2 r c) = ix2 (0 : Fin 1) c := by idx_rfl2
theorem i33 (k : Fin 16) : idx_main_v33 (ix1 r) k = ix2 r k := by idx_rfl2
theorem i34 : idx_main_v34 (ix2 r u) = ix1 r := by idx_rfl1
theorem i37 (c : Fin 16) : idx_main_v37 (ix2 r c) = ix2 r (0 : Fin 1) := by idx_rfl2
theorem i40 (k : Fin 16) : idx_main_v40 (ix1 r) k = ix2 r k := by idx_rfl2
theorem i41 : idx_main_v41 (ix2 r u) = ix1 r := by idx_rfl1
theorem i44 (c : Fin 16) : idx_main_v44 (ix2 r c) = ix2 r (0 : Fin 1) := by idx_rfl2
theorem i49 (c : Fin 16) : idx_main_v49 (ix2 r c) = ix2 r (0 : Fin 1) := by idx_rfl2
theorem i51 (c : Fin 16) : idx_main_v51 (ix2 u c) = ix1 c := by idx_rfl1
theorem i52 (c : Fin 16) : idx_main_v52 (ix2 r c) = ix2 (0 : Fin 1) c := by idx_rfl2
theorem i54 (c : Fin 16) : idx_main_v54 (ix2 u c) = ix1 c := by idx_rfl1
theorem i55 (c : Fin 16) : idx_main_v55 (ix2 r c) = ix2 (0 : Fin 1) c := by idx_rfl2
theorem i64 (c : Fin 3) : idx_main_v64 (ix2 u c) = ix1 c := by idx_rfl1
theorem i65 (c : Fin 3) : idx_main_v65 (ix2 r c) = ix2 (0 : Fin 1) c := by idx_rfl2
theorem i70 (c : Fin 3) : idx_main_v70 (ix2 r c) = ix2 r (0 : Fin 1) := by idx_rfl2
theorem ic1 (k : Fin 3) : idx_main_call2_v1 (ix1 r) k = ix2 r k := by idx_rfl2
theorem ic2 : idx_main_call2_v2 (ix2 r u) = ix1 r := by idx_rfl1

end Indices

variable (x0 : (⟨S1048576x128, .f32⟩ : BufTy).Contents (Elt Ideal)) (x1 : (⟨S32x128, .f32⟩ : BufTy).Contents (Elt Ideal))
  (x2 x3 : (⟨S32, .f32⟩ : BufTy).Contents (Elt Ideal)) (x4 : (⟨S16x32, .f32⟩ : BufTy).Contents (Elt Ideal))
  (x5 x6 : (⟨S16, .f32⟩ : BufTy).Contents (Elt Ideal)) (x7 : (⟨S3x16, .f32⟩ : BufTy).Contents (Elt Ideal))
  (x8 : (⟨S3, .f32⟩ : BufTy).Contents (Elt Ideal))

/-- The first linear map at (r, c). -/
theorem layer1 (r : Fin 1048576) (c : Fin 32) :
    val_main_v1 (F := Ideal) x0 x1 (ix2 r c) = lin (fun a k => x1 (ix2 a k)) (fun k => x0 (ix2 r k)) c := by
  rw [val_main_v1_apply]
  show ∑ k : Fin 128, _ = ∑ k : Fin 128, x1 (ix2 c k) * x0 (ix2 r k)
  refine Finset.sum_congr rfl fun k _ => ?_
  rw [val_main_v0_apply, mul_comm]
  exact congrArg₂ (· * ·) (congrArg x1 (by idx_rfl2)) (congrArg x0 (by idx_rfl2))

/-- The first normalisation and rectifier at (r, c). -/
theorem act1 (r : Fin 1048576) (c : Fin 32) :
    val_main_v30 (F := Ideal) x0 x1 x2 x3 (ix2 r c)
      = act count32 (lin (fun a k => x1 (ix2 a k)) (fun k => x0 (ix2 r k))) (fun j => x2 (ix1 j)) (fun j => x3 (ix1 j)) c := by
  simp only [val_main_v30_apply, val_main_v27_apply, val_main_v29_apply, val_main_v28_apply, val_main_v26_apply,
    val_main_cst_4_apply, val_main_cst_5_apply, val_main_v25_apply, val_main_v24_apply, val_main_v23_apply,
    val_main_v22_apply, val_main_v21_apply, val_main_v20_apply, val_main_v19_apply, val_main_v18_apply,
    val_main_v17_apply, val_main_v16_apply, val_main_v15_apply, val_main_cst_3_apply, val_main_v14_apply,
    val_main_v13_apply, val_main_v12_apply, val_main_v11_apply, val_main_cst_2_apply, val_main_v10_apply,
    val_main_v9_apply, val_main_cst_1_apply, val_main_v8_apply, val_main_v7_apply, val_main_v6_apply,
    val_main_v5_apply, val_main_v4_apply, val_main_cst_0_apply, val_main_v3_apply, val_main_v2_apply,
    val_main_cst_apply, i2, i3, i6, i9, i10, i13, i18, i20, i21, i23, i24, layer1, ofBits_zero_add]
  simp only [Ideal.addf_def, Ideal.mulf_def, Ideal.subf_def, Ideal.hostDivf_def, Ideal.hostUnary_rsqrt_def,
    Ideal.hostUnary_sqrt_def, Ideal.maximumf_def, Ideal.ofBits_def, act, leaky, normed, var, mean]

/-- The second linear map at (r, c). -/
theorem layer2 (r : Fin 1048576) (c : Fin 16) :
    val_main_v32 (F := Ideal) x0 x1 x2 x3 x4 (ix2 r c)
      = lin (fun a k => x4 (ix2 a k)) (act count32 (lin (fun a k => x1 (ix2 a k)) (fun k => x0 (ix2 r k)))
          (fun j => x2 (ix1 j)) (fun j => x3 (ix1 j))) c := by
  rw [val_main_v32_apply]
  show ∑ k : Fin 32, _ = ∑ k : Fin 32, x4 (ix2 c k) * act count32 (lin (fun a k => x1 (ix2 a k)) (fun k => x0 (ix2 r k)))
    (fun j => x2 (ix1 j)) (fun j => x3 (ix1 j)) k
  refine Finset.sum_congr rfl fun k _ => ?_
  rw [val_main_v31_apply, mul_comm]
  refine congrArg₂ (· * ·) (congrArg x4 (by idx_rfl2)) ?_
  rw [show lidx_main_v32 (ix2 r c) k = ix2 r k by idx_rfl2]
  exact act1 x0 x1 x2 x3 r k

/-- The second normalisation and rectifier at (r, c). -/
theorem act2 (r : Fin 1048576) (c : Fin 16) :
    val_main_v61 (F := Ideal) x0 x1 x2 x3 x4 x5 x6 (ix2 r c)
      = act count16 (lin (fun a k => x4 (ix2 a k)) (act count32 (lin (fun a k => x1 (ix2 a k)) (fun k => x0 (ix2 r k)))
          (fun j => x2 (ix1 j)) (fun j => x3 (ix1 j)))) (fun j => x5 (ix1 j)) (fun j => x6 (ix1 j)) c := by
  simp only [val_main_v61_apply, val_main_v58_apply, val_main_v60_apply, val_main_v59_apply, val_main_v57_apply,
    val_main_cst_11_apply, val_main_cst_12_apply, val_main_v56_apply, val_main_v55_apply, val_main_v54_apply,
    val_main_v53_apply, val_main_v52_apply, val_main_v51_apply, val_main_v50_apply, val_main_v49_apply,
    val_main_v48_apply, val_main_v47_apply, val_main_v46_apply, val_main_cst_10_apply, val_main_v45_apply,
    val_main_v44_apply, val_main_v43_apply, val_main_v42_apply, val_main_cst_9_apply, val_main_v41_apply,
    val_main_v40_apply, val_main_cst_8_apply, val_main_v39_apply, val_main_v38_apply, val_main_v37_apply,
    val_main_v36_apply, val_main_v35_apply, val_main_cst_7_apply, val_main_v34_apply, val_main_v33_apply,
    val_main_cst_6_apply, i33, i34, i37, i40, i41, i44, i49, i51, i52, i54, i55, layer2, ofBits_zero_add]
  simp only [Ideal.addf_def, Ideal.mulf_def, Ideal.subf_def, Ideal.hostDivf_def, Ideal.hostUnary_rsqrt_def,
    Ideal.hostUnary_sqrt_def, Ideal.maximumf_def, Ideal.ofBits_def, act, leaky, normed, var, mean]

/-- The third linear map and its bias at (r, c). -/
theorem head (r : Fin 1048576) (c : Fin 3) :
    val_main_v66 (F := Ideal) x0 x1 x2 x3 x4 x5 x6 x7 x8 (ix2 r c)
      = lin (fun a k => x7 (ix2 a k)) (act count16 (lin (fun a k => x4 (ix2 a k)) (act count32
          (lin (fun a k => x1 (ix2 a k)) (fun k => x0 (ix2 r k))) (fun j => x2 (ix1 j)) (fun j => x3 (ix1 j))))
          (fun j => x5 (ix1 j)) (fun j => x6 (ix1 j))) c + x8 (ix1 c) := by
  rw [val_main_v66_apply, val_main_v65_apply, val_main_v64_apply, i65, i64, Ideal.addf_def]
  refine congrArg (· + x8 (ix1 c)) ?_
  rw [val_main_v63_apply]
  show ∑ k : Fin 16, _ = ∑ k : Fin 16, x7 (ix2 c k) * act count16 (lin (fun a k => x4 (ix2 a k)) (act count32
    (lin (fun a k => x1 (ix2 a k)) (fun k => x0 (ix2 r k))) (fun j => x2 (ix1 j)) (fun j => x3 (ix1 j))))
    (fun j => x5 (ix1 j)) (fun j => x6 (ix1 j)) k
  refine Finset.sum_congr rfl fun k _ => ?_
  rw [val_main_v62_apply, mul_comm]
  refine congrArg₂ (· * ·) (congrArg x7 (by idx_rfl2)) ?_
  rw [show lidx_main_v63 (ix2 r c) k = ix2 r k by idx_rfl2]
  exact act2 x0 x1 x2 x3 x4 x5 x6 r k

end Cert.ReferenceIdeal.RefDecoder

end
-- ==== Proof.RefValue.lean ====
/-
  The reference program's result is the decoder of the specification.

  With its third layer read at an entry (the sibling module), the reference's last operations are the
  specification's final step: the squares of the three channels summed from a zero start, the square root, the
  maximum with the floor, broadcast back over the three channels, and the quotient.
-/
import proofs.«121626_j12489764897254_2_alg».proof.Proof.RefLayers

noncomputable section

namespace Cert.ReferenceIdeal.RefDecoder

open Cert.ReferenceIdeal Cert.ReferenceIdeal.Gen Cert.ReferenceIdeal.ReadP Idealize.ShloMosaic Idealize.ShloMosaic.ValueIdx
open NormalDecoder

variable (x0 : (⟨S1048576x128, .f32⟩ : BufTy).Contents (Elt Ideal)) (x1 : (⟨S32x128, .f32⟩ : BufTy).Contents (Elt Ideal))
  (x2 x3 : (⟨S32, .f32⟩ : BufTy).Contents (Elt Ideal)) (x4 : (⟨S16x32, .f32⟩ : BufTy).Contents (Elt Ideal))
  (x5 x6 : (⟨S16, .f32⟩ : BufTy).Contents (Elt Ideal)) (x7 : (⟨S3x16, .f32⟩ : BufTy).Contents (Elt Ideal))
  (x8 : (⟨S3, .f32⟩ : BufTy).Contents (Elt Ideal))

/-- THE REFERENCE'S RESULT at (r, c). -/
theorem result_apply (r : Fin 1048576) (c : Fin 3) :
    val_main_v71 (F := Ideal) x0 x1 x2 x3 x4 x5 x6 x7 x8 (ix2 r c) = G x0 x1 x2 x3 x4 x5 x6 x7 x8 r c := by
  rw [val_main_v71_apply, val_main_v70_apply, i70, val_main_v69_apply, val_main_v68_apply, val_main_cst_13_apply,
    val_main_v67_apply, val_main_call2_v2_apply, ic2, val_main_call2_v1_apply, val_main_call2_cst_apply, ofBits_zero_add]
  simp only [ic1, val_main_call2_v0_apply]
  simp only [head]
  simp only [Ideal.hostDivf_def, Ideal.maximumf_def, Ideal.hostUnary_sqrt_def, Ideal.mulf_def, Ideal.ofBits_def, G, rowOut, unitize]

/-- The reference's result array is the decoder's array. -/
theorem result_eq : val_main_v71 (F := Ideal) x0 x1 x2 x3 x4 x5 x6 x7 x8 = Garr x0 x1 x2 x3 x4 x5 x6 x7 x8 := by
  funext i
  obtain ⟨r, c, rfl⟩ : ∃ (r : Fin 1048576) (c : Fin 3), i = ix2 r c := ⟨i 0, i 1, eq_ix2 i⟩
  rw [Garr_ix2]
  exact result_apply x0 x1 x2 x3 x4 x5 x6 x7 x8 r c

end Cert.ReferenceIdeal.RefDecoder

end
-- ==== Proof.lean ====
/-
  Kernel and reference compute one function: the proof of `Cert.Claim`.

  The kernel lays a tile of 16384 feature rows out channels-by-rows and runs a three-layer decoder on it (two
  layers of linear map, normalisation over the channels, leaky rectifier; a third linear map with bias; division
  of the 3-vector by its Euclidean length floored at a tiny constant), writing a [3, N] array that the host
  transposes. The reference runs the same decoder rows-by-channels on the host. On the extended reals the two
  results are equal entry by entry: both are the specification's decoder (Proof/Spec.lean) of the feature row,
  the only algebraic fact used being that a product does not depend on the order of its factors. No property of
  finite inputs is needed, so the precondition is not opened.

  The three frames are the generated ones (the reference's is its run with the result dropped); the ideal pass
  rewrote nothing, so the idealization conjunct is trivial.
-/
import proofs.«121626_j12489764897254_2_alg».proof.Defs
import proofs.«121626_j12489764897254_2_alg».proof.Proof.Gen.Kernel
import proofs.«121626_j12489764897254_2_alg».proof.Proof.Gen.Kernel.Skeleton
import proofs.«121626_j12489764897254_2_alg».proof.Proof.Gen.Kernel.Launch
import proofs.«121626_j12489764897254_2_alg».proof.Proof.Gen.Kernel.Points
import proofs.«121626_j12489764897254_2_alg».proof.Proof.Gen.Kernel.Frame
import proofs.«121626_j12489764897254_2_alg».proof.Proof.Gen.KernelIdeal
import proofs.«121626_j12489764897254_2_alg».proof.Proof.Gen.KernelIdeal.Skeleton
import proofs.«121626_j12489764897254_2_alg».proof.Proof.Gen.KernelIdeal.Launch
import proofs.«121626_j12489764897254_2_alg».proof.Proof.Gen.KernelIdeal.Points
import proofs.«121626_j12489764897254_2_alg».proof.Proof.Gen.KernelIdeal.Frame
import proofs.«121626_j12489764897254_2_alg».proof.Proof.Gen.ReferenceIdeal
import proofs.«121626_j12489764897254_2_alg».proof.Proof.Gen.Pre_finite_inputs
import proofs.«121626_j12489764897254_2_alg».proof.Proof.KernelResult
import proofs.«121626_j12489764897254_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the decoder's array of the arguments: the kernel's run by the entry-wise reading of
    its tiles, the reference's by the entry-wise reading of its host operations. -/
theorem algebraic : Cert.algebraic_KernelIdeal_ReferenceIdeal := by
  intro m ρ m' ρ' _ hagree
  refine ⟨fun c => NormalDecoder.Garr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)),
    Cert.KernelIdeal.Decoder.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v71_eq, Cert.ReferenceIdeal.RefDecoder.result_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
